-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "ten_over_ln10" .f32 0x408AF967#32 ((20971520 / 4828871 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2x262144 : Shape := ⟨3, ![32, 2, 262144]⟩
abbrev S512x257 : Shape := ⟨2, ![512, 257]⟩
abbrev S_ : Shape := ⟨0, ![]⟩

class Facts : Prop where
  bcast_S_S32x2x262144 : S_.BroadcastsInDim S32x2x262144 (![] : Fin 0 → Fin S32x2x262144.rank)
  reducesTo_S32x2x262144_S_d0_1_2 : S32x2x262144.ReducesTo [0, 1, 2] S_
  h_S_ : 0 < S_.numel
  bcast_S_S512x257 : S_.BroadcastsInDim S512x257 (![] : Fin 0 → Fin S512x257.rank)
  reducesTo_S512x257_S_d0_1 : S512x257.ReducesTo [0, 1] S_

variable [Facts]

def fn {F : FTy → Type} [FloatOps F] (main_arg0 : FVec F S32x2x262144 .f32) (main_arg1 : FVec F S512x257 .f32) (main_arg2 : FVec F S512x257 .f32) : IVec S_ 1 :=
  let main_v0 : FVec F S32x2x262144 .f32 := Host.absf main_arg0
  let main_cst : FVec F S_ .f32 := constant S_ .f32 0x7F800000#32
  let main_v1 : FVec F S32x2x262144 .f32 := broadcastInDim S32x2x262144 ![] bcast_S_S32x2x262144 main_cst
  let main_v2 : IVec S32x2x262144 1 := cmpf .olt main_v0 main_v1
  let main_c : IVec S_ 1 := constantI S_ 1 1#1
  let main_v3 : IVec S_ 1 := (fun x v => Host.reduce IntOp.andi x v reducesTo_S32x2x262144_S_d0_1_2 h_S_) main_v2 main_c
  let main_v4 : FVec F S512x257 .f32 := Host.absf main_arg1
  let main_cst_0 : FVec F S_ .f32 := constant S_ .f32 0x7F800000#32
  let main_v5 : FVec F S512x257 .f32 := broadcastInDim S512x257 ![] bcast_S_S512x257 main_cst_0
  let main_v6 : IVec S512x257 1 := cmpf .olt main_v4 main_v5
  let main_c_1 : IVec S_ 1 := constantI S_ 1 1#1
  let main_v7 : IVec S_ 1 := (fun x v => Host.reduce IntOp.andi x v reducesTo_S512x257_S_d0_1 h_S_) main_v6 main_c_1
  let main_v8 : IVec S_ 1 := andi main_v3 main_v7
  let main_v9 : FVec F S512x257 .f32 := Host.absf main_arg2
  let main_cst_2 : FVec F S_ .f32 := constant S_ .f32 0x7F800000#32
  let main_v10 : FVec F S512x257 .f32 := broadcastInDim S512x257 ![] bcast_S_S512x257 main_cst_2
  let main_v11 : IVec S512x257 1 := cmpf .olt main_v9 main_v10
  let main_c_3 : IVec S_ 1 := constantI S_ 1 1#1
  let main_v12 : IVec S_ 1 := (fun x v => Host.reduce IntOp.andi x v reducesTo_S512x257_S_d0_1 h_S_) main_v11 main_c_3
  let main_v13 : IVec S_ 1 := andi main_v8 main_v12
  main_v13
-- ==== Kernel.lean ====
abbrev S32x2x262144 : Shape := ⟨3, ![32, 2, 262144]⟩
abbrev S512x257 : Shape := ⟨2, ![512, 257]⟩
abbrev S_ : Shape := ⟨0, ![]⟩
abbrev S32x2x262400 : Shape := ⟨3, ![32, 2, 262400]⟩
abbrev S32x2x1025x256 : Shape := ⟨4, ![32, 2, 1025, 256]⟩
abbrev S32x2x1024x256 : Shape := ⟨4, ![32, 2, 1024, 256]⟩
abbrev S32x2x1024x512 : Shape := ⟨4, ![32, 2, 1024, 512]⟩
abbrev S64x1024x512 : Shape := ⟨3, ![64, 1024, 512]⟩
abbrev S64x1024x257 : Shape := ⟨3, ![64, 1024, 257]⟩
abbrev S1x1024x512 : Shape := ⟨3, ![1, 1024, 512]⟩
abbrev S1x1024x257 : Shape := ⟨3, ![1, 1024, 257]⟩
abbrev S1024x512 : Shape := ⟨2, ![1024, 512]⟩
abbrev S1024x257 : Shape := ⟨2, ![1024, 257]⟩
abbrev S1x1 : Shape := ⟨2, ![1, 1]⟩
abbrev S4x1024x257 : Shape := ⟨3, ![4, 1024, 257]⟩
abbrev S32x2x1024x257 : Shape := ⟨4, ![32, 2, 1024, 257]⟩
abbrev S32x257x1024x2 : Shape := ⟨4, ![32, 257, 1024, 2]⟩

abbrev nBuf : Space → Nat
  | .hbm => 21
  | .vmem => 11
  | .smem => 0
  | _ => 0

abbrev bufTy : (tb : Table) → Fin (tcTables nBuf tb) → BufTy
  | .hbm, ⟨0, _⟩ => ⟨S32x2x262144, .f32⟩
  | .hbm, ⟨1, _⟩ => ⟨S512x257, .f32⟩
  | .hbm, ⟨2, _⟩ => ⟨S512x257, .f32⟩
  | .hbm, ⟨3, _⟩ => ⟨S32x2x262144, .bf16⟩
  | .hbm, ⟨4, _⟩ => ⟨S_, .i32⟩
  | .hbm, ⟨5, _⟩ => ⟨S_, .bf16⟩
  | .hbm, ⟨6, _⟩ => ⟨S32x2x262400, .bf16⟩
  | .hbm, ⟨7, _⟩ => ⟨S32x2x1025x256, .bf16⟩
  | .hbm, ⟨8, _⟩ => ⟨S32x2x1024x256, .bf16⟩
  | .hbm, ⟨9, _⟩ => ⟨S32x2x1024x256, .bf16⟩
  | .hbm, ⟨10, _⟩ => ⟨S32x2x1024x512, .bf16⟩
  | .hbm, ⟨11, _⟩ => ⟨S64x1024x512, .bf16⟩
  | .hbm, ⟨12, _⟩ => ⟨S512x257, .bf16⟩
  | .hbm, ⟨13, _⟩ => ⟨S512x257, .bf16⟩
  | .hbm, ⟨14, _⟩ => ⟨S64x1024x257, .f32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S64x1024x257, .f32⟩
  | .hbm, ⟨19, _⟩ => ⟨S32x2x1024x257, .f32⟩
  | .hbm, ⟨20, _⟩ => ⟨S32x257x1024x2, .f32⟩
  | .local _ .vmem, ⟨0, _⟩ => ⟨S1x1024x512, .bf16⟩
  | .local _ .vmem, ⟨1, _⟩ => ⟨S1x1024x512, .bf16⟩
  | .local _ .vmem, ⟨2, _⟩ => ⟨S512x257, .bf16⟩
  | .local _ .vmem, ⟨3, _⟩ => ⟨S512x257, .bf16⟩
  | .local _ .vmem, ⟨4, _⟩ => ⟨S1x1024x257, .f32⟩
  | .local _ .vmem, ⟨5, _⟩ => ⟨S1x1024x257, .f32⟩
  | .local _ .vmem, ⟨6, _⟩ => ⟨S4x1024x257, .f32⟩
  | .local _ .vmem, ⟨7, _⟩ => ⟨S4x1024x257, .f32⟩
  | .local _ .vmem, ⟨8, _⟩ => ⟨S1x1, .f32⟩
  | .local _ .vmem, ⟨9, _⟩ => ⟨S4x1024x257, .f32⟩
  | .local _ .vmem, ⟨10, _⟩ => ⟨S4x1024x257, .f32⟩
  | _, _ => ⟨S32x2x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x257 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x257 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x257 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x1024x257 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x1024x257 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  pads_S32x2x262144_S32x2x262400_000_000_1281280 : S32x2x262144.Pads (![0, 0, 128] : Fin 3 → Nat) ![0, 0, 128] ![0, 0, 0] S32x2x262400
  h_S_ : 0 < S_.numel
  shapeCasts_S32x2x262400_S32x2x1025x256 : S32x2x262400.ShapeCasts S32x2x1025x256
  slices_S32x2x1025x256_S32x2x1024x256_0_0_0_0 : S32x2x1025x256.Slices ![0, 0, 0, 0] S32x2x1024x256
  slices_S32x2x1025x256_S32x2x1024x256_0_0_1_0 : S32x2x1025x256.Slices ![0, 0, 1, 0] S32x2x1024x256
  concatenates_S32x2x1024x256_S32x2x1024x256_S32x2x1024x512_d3 : Shape.Concatenates [S32x2x1024x256, S32x2x1024x256] S32x2x1024x512 3
  shapeCasts_S32x2x1024x512_S64x1024x512 : S32x2x1024x512.ShapeCasts S64x1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x257_S512x257_0_0 : ∀ a, (![0, 0] : Fin 2 → Nat) a + S512x257.size a ≤ S512x257.size a
  h_S512x257 : 0 < S512x257.numel
  shapeCasts_S512x257_S512x257 : S512x257.ShapeCasts S512x257
  inb_S1x1024x257_S1x1024x257_0_0_0 : ∀ a, (![0, 0, 0] : Fin 3 → Nat) a + S1x1024x257.size a ≤ S1x1024x257.size a
  h_S1x1024x257 : 0 < S1x1024x257.numel
  shapeCasts_S1x1024x257_S1024x257 : S1x1024x257.ShapeCasts S1024x257
  shapeCasts_S1024x257_S1x1024x257 : S1024x257.ShapeCasts S1x1024x257
  reducesTo_S64x1024x257_S_d0_1_2 : S64x1024x257.ReducesTo [0, 1, 2] S_
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S4x1024x257_S4x1024x257_0_0_0 : ∀ a, (![0, 0, 0] : Fin 3 → Nat) a + S4x1024x257.size a ≤ S4x1024x257.size a
  h_S4x1024x257 : 0 < S4x1024x257.numel
  shapeCasts_S4x1024x257_S4x1024x257 : S4x1024x257.ShapeCasts S4x1024x257
  shapeCasts_S64x1024x257_S32x2x1024x257 : S64x1024x257.ShapeCasts S32x2x1024x257
  transposes_S32x2x1024x257_S32x257x1024x2_0_3_2_1 : S32x2x1024x257.Transposes [0, 3, 2, 1] S32x257x1024x2
  dot_S1024x512_S512x257_S1024x257_1_0_0_1_n_n_wf : DotDims.WF S1024x512 S512x257 S1024x257 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S64x1024x512.size a
  hwx0_0 : ∀ i : grid0.Coords, EltTy.bits .bf16 = 32 ∨ (Rect.block (s := S64x1024x512) S1x1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x257.size a ≤ S512x257.size a
  hwx0_1 : ∀ i : grid0.Coords, EltTy.bits .bf16 = 32 ∨ (Rect.block (s := S512x257) S512x257.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x257.size a ≤ S512x257.size a
  hwx0_2 : ∀ i : grid0.Coords, EltTy.bits .bf16 = 32 ∨ (Rect.block (s := S512x257) S512x257.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x257.size a ≤ S64x1024x257.size a
  hwx0_3 : ∀ i : grid0.Coords, EltTy.bits .f32 = 32 ∨ (Rect.block (s := S64x1024x257) S1x1024x257.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x1024x257.size a ≤ S64x1024x257.size a
  hwx1_0 : ∀ i : grid1.Coords, EltTy.bits .f32 = 32 ∨ (Rect.block (s := S64x1024x257) S4x1024x257.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x1024x257.size a ≤ S64x1024x257.size a
  hwx1_2 : ∀ i : grid1.Coords, EltTy.bits .f32 = 32 ∨ (Rect.block (s := S64x1024x257) S4x1024x257.size (cc1_transform_2 i) (hinb1_2 i)).WholeWords (EltTy.packing .f32)

variable [Facts₀]

def dot_S1024x512_S512x257_S1024x257_1_0_0_1_n_n : DotDims S1024x512 S512x257 S1024x257 where
  lhsContracting := [1]
  rhsContracting := [0]
  lhsNonContracting := [0]
  rhsNonContracting := [1]
  lhsBatch := []
  rhsBatch := []
  wf := dot_S1024x512_S512x257_S1024x257_1_0_0_1_n_n_wf

abbrev win0_0 : Pipeline.Window sig grid0 :=
  Pipeline.Window.ofSpec (Memref.whole main_v6) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x257.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x257.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024x257.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S4x1024x257.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4x1024x257.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x2x262144 : Shape := ⟨3, ![32, 2, 262144]⟩
abbrev S512x257 : Shape := ⟨2, ![512, 257]⟩
abbrev S_ : Shape := ⟨0, ![]⟩
abbrev S32x2x262400 : Shape := ⟨3, ![32, 2, 262400]⟩
abbrev S1024 : Shape := ⟨1, ![1024]⟩
abbrev S1024x1 : Shape := ⟨2, ![1024, 1]⟩
abbrev S512 : Shape := ⟨1, ![512]⟩
abbrev S1x512 : Shape := ⟨2, ![1, 512]⟩
abbrev S1024x512 : Shape := ⟨2, ![1024, 512]⟩
abbrev S1024x512x1 : Shape := ⟨3, ![1024, 512, 1]⟩
abbrev S32x2x1024x512 : Shape := ⟨4, ![32, 2, 1024, 512]⟩
abbrev S32x2x1024x257 : Shape := ⟨4, ![32, 2, 1024, 257]⟩
abbrev S32x257x1024x2 : Shape := ⟨4, ![32, 257, 1024, 2]⟩

abbrev nBuf : Space → Nat
  | .hbm => 48
  | .vmem => 0
  | .smem => 0
  | _ => 0

abbrev bufTy : (tb : Table) → Fin (tcTables nBuf tb) → BufTy
  | .hbm, ⟨0, _⟩ => ⟨S32x2x262144, .f32⟩
  | .hbm, ⟨1, _⟩ => ⟨S512x257, .f32⟩
  | .hbm, ⟨2, _⟩ => ⟨S512x257, .f32⟩
  | .hbm, ⟨3, _⟩ => ⟨S_, .i32⟩
  | .hbm, ⟨4, _⟩ => ⟨S_, .f32⟩
  | .hbm, ⟨5, _⟩ => ⟨S32x2x262400, .f32⟩
  | .hbm, ⟨6, _⟩ => ⟨S1024, .i32⟩
  | .hbm, ⟨7, _⟩ => ⟨S1024x1, .i32⟩
  | .hbm, ⟨8, _⟩ => ⟨S_, .i32⟩
  | .hbm, ⟨9, _⟩ => ⟨S1024x1, .i32⟩
  | .hbm, ⟨10, _⟩ => ⟨S1024x1, .i32⟩
  | .hbm, ⟨11, _⟩ => ⟨S512, .i32⟩
  | .hbm, ⟨12, _⟩ => ⟨S1x512, .i32⟩
  | .hbm, ⟨13, _⟩ => ⟨S1024x512, .i32⟩
  | .hbm, ⟨14, _⟩ => ⟨S1024x512, .i32⟩
  | .hbm, ⟨15, _⟩ => ⟨S1024x512, .i32⟩
  | .hbm, ⟨16, _⟩ => ⟨S_, .i32⟩
  | .hbm, ⟨17, _⟩ => ⟨S1024x512, .i32⟩
  | .hbm, ⟨18, _⟩ => ⟨S1024x512, .i1⟩
  | .hbm, ⟨19, _⟩ => ⟨S_, .i32⟩
  | .hbm, ⟨20, _⟩ => ⟨S1024x512, .i32⟩
  | .hbm, ⟨21, _⟩ => ⟨S1024x512, .i32⟩
  | .hbm, ⟨22, _⟩ => ⟨S1024x512, .i32⟩
  | .hbm, ⟨23, _⟩ => ⟨S1024x512x1, .i32⟩
  | .hbm, ⟨24, _⟩ => ⟨S32x2x1024x512, .f32⟩
  | .hbm, ⟨25, _⟩ => ⟨S32x2x1024x257, .f32⟩
  | .hbm, ⟨26, _⟩ => ⟨S32x2x1024x257, .f32⟩
  | .hbm, ⟨27, _⟩ => ⟨S32x2x1024x257, .f32⟩
  | .hbm, ⟨28, _⟩ => ⟨S32x2x1024x257, .f32⟩
  | .hbm, ⟨29, _⟩ => ⟨S32x2x1024x257, .f32⟩
  | .hbm, ⟨30, _⟩ => ⟨S32x257x1024x2, .f32⟩
  | .hbm, ⟨31, _⟩ => ⟨S_, .f32⟩
  | .hbm, ⟨32, _⟩ => ⟨S32x257x1024x2, .f32⟩
  | .hbm, ⟨33, _⟩ => ⟨S32x257x1024x2, .f32⟩
  | .hbm, ⟨34, _⟩ => ⟨S32x257x1024x2, .f32⟩
  | .hbm, ⟨35, _⟩ => ⟨S_, .f32⟩
  | .hbm, ⟨36, _⟩ => ⟨S32x257x1024x2, .f32⟩
  | .hbm, ⟨37, _⟩ => ⟨S32x257x1024x2, .f32⟩
  | .hbm, ⟨38, _⟩ => ⟨S_, .f32⟩
  | .hbm, ⟨39, _⟩ => ⟨S32x257x1024x2, .f32⟩
  | .hbm, ⟨40, _⟩ => ⟨S32x257x1024x2, .f32⟩
  | .hbm, ⟨41, _⟩ => ⟨S_, .f32⟩
  | .hbm, ⟨42, _⟩ => ⟨S_, .f32⟩
  | .hbm, ⟨43, _⟩ => ⟨S32x257x1024x2, .f32⟩
  | .hbm, ⟨44, _⟩ => ⟨S32x257x1024x2, .f32⟩
  | .hbm, ⟨45, _⟩ => ⟨S_, .f32⟩
  | .hbm, ⟨46, _⟩ => ⟨S32x257x1024x2, .f32⟩
  | .hbm, ⟨47, _⟩ => ⟨S32x257x1024x2, .f32⟩
  | _, _ => ⟨S32x2x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  pads_S32x2x262144_S32x2x262400_000_000_1281280 : S32x2x262144.Pads (![0, 0, 128] : Fin 3 → Nat) ![0, 0, 128] ![0, 0, 0] S32x2x262400
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S512_S1x512_1 : S512.BroadcastsInDim S1x512 (![1] : Fin 1 → Fin S1x512.rank)
  bcast_S1024x1_S1024x512_0_1 : S1024x1.BroadcastsInDim S1024x512 (![0, 1] : Fin 2 → Fin S1024x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S1024x512_S1024x512x1_0_1 : S1024x512.BroadcastsInDim S1024x512x1 (![0, 1] : Fin 2 → Fin S1024x512x1.rank)
  transposes_S32x2x1024x257_S32x257x1024x2_0_3_2_1 : S32x2x1024x257.Transposes [0, 3, 2, 1] S32x257x1024x2
  bcast_S_S32x257x1024x2 : S_.BroadcastsInDim S32x257x1024x2 (![] : Fin 0 → Fin S32x257x1024x2.rank)
  reducesTo_S32x257x1024x2_S_d0_1_2_3 : S32x257x1024x2.ReducesTo [0, 1, 2, 3] S_
  gather_S32x2x262400_S1024x512x1_S32x2x1024x512_01_2_n_n_2_2_3221_wf : GatherDims.WF S32x2x262400 S1024x512x1 S32x2x1024x512 [0, 1] [2] [] [2] [] 2 ![32, 2, 1]
  dot_S32x2x1024x512_S512x257_S32x2x1024x257_3_0_012_1_n_n_wf : DotDims.WF S32x2x1024x512 S512x257 S32x2x1024x257 [3] [0] [0, 1, 2] [1] [] []

variable [Facts₀]

def gather_S32x2x262400_S1024x512x1_S32x2x1024x512_01_2_n_n_2_2_3221 : GatherDims S32x2x262400 S1024x512x1 S32x2x1024x512 where
  offsetDims := [0, 1]
  collapsedSliceDims := [2]
  operandBatchingDims := []
  startIndicesBatchingDims := []
  startIndexMap := [2]
  indexVectorDim := 2
  sliceSizes := ![32, 2, 1]
  wf := gather_S32x2x262400_S1024x512x1_S32x2x1024x512_01_2_n_n_2_2_3221_wf
def dot_S32x2x1024x512_S512x257_S32x2x1024x257_3_0_012_1_n_n : DotDims S32x2x1024x512 S512x257 S32x2x1024x257 where
  lhsContracting := [3]
  rhsContracting := [0]
  lhsNonContracting := [0, 1, 2]
  rhsNonContracting := [1]
  lhsBatch := []
  rhsBatch := []
  wf := dot_S32x2x1024x512_S512x257_S32x2x1024x257_3_0_012_1_n_n_wf

class Facts : Prop extends Facts₀ where

variable [Facts]
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.Stft.lean ====
/-
  The first region's body at an index.  One grid point loads a block of 1024 frames of 512 samples, the two
  512 × 257 transform matrices, and stores, for frame `t` and frequency `f`,
      scale · log (max (re² + im², floor))
  where `re` and `im` are the sums over the 512 samples of the frame times the cosine and the sine column, the
  floor is the word 0x2EDBE6FF (the f32 nearest 1e-10) and the scale is the named constant, the exact quotient of 10
  by the reference's divisor.
-/
import proofs.«104637_j67207648248372_1_alg».proof.Proof.Gen.KernelIdeal.Skeleton
import proofs.«104637_j67207648248372_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.Stft

open Cert.KernelIdeal Cert.KernelIdeal.Gen Idealize.ShloMosaic Idealize.ShloMosaic.TcCoe Idealize.ShloMosaic.ValueIdx

/-- The decibel value of a bin from its real and imaginary parts. -/
def dB (re im : EReal) : EReal :=
  ((20971520 / 4828871 : ℝ) : EReal) * Ideal.log (max (re * re + im * im) (Ideal.ofBits .f32 0x2EDBE6FF#32))

/-- The named scale is the exact quotient, by the certificate's table. -/
theorem scale_eq : Named.named (F := Ideal) κ "ten_over_ln10" (φ := .f32) 0x408AF967#32 = ((20971520 / 4828871 : ℝ) : EReal) :=
  IdealRules.named_const.ideal_named_scalar _ _ _ _ rfl

/-! ## The matrix product's operand indices -/

theorem l0 (j : S1024x257.Idx) (q : dot_S1024x512_S512x257_S1024x257_1_0_0_1_n_n.contr.Idx) :
    (dot_S1024x512_S512x257_S1024x257_1_0_0_1_n_n.lhsIdx j q 0).val = (j 0).val := by
  unfold DotDims.lhsIdx
  rw [dif_neg (show ¬(0 : Fin S1024x512.rank) ∈ dot_S1024x512_S512x257_S1024x257_1_0_0_1_n_n.lhsBatch by decide),
    dif_pos (show (0 : Fin S1024x512.rank) ∈ dot_S1024x512_S512x257_S1024x257_1_0_0_1_n_n.lhsNonContracting by decide)]
  rfl
theorem l1 (j : S1024x257.Idx) (q : dot_S1024x512_S512x257_S1024x257_1_0_0_1_n_n.contr.Idx) :
    (dot_S1024x512_S512x257_S1024x257_1_0_0_1_n_n.lhsIdx j q 1).val = (q ⟨0, by decide⟩).val :=
  dot_S1024x512_S512x257_S1024x257_1_0_0_1_n_n.lhsIdx_val_of_single rfl j q
theorem r0 (j : S1024x257.Idx) (q : dot_S1024x512_S512x257_S1024x257_1_0_0_1_n_n.contr.Idx) :
    (dot_S1024x512_S512x257_S1024x257_1_0_0_1_n_n.rhsIdx j q 0).val = (q ⟨0, by decide⟩).val :=
  dot_S1024x512_S512x257_S1024x257_1_0_0_1_n_n.rhsIdx_val_of_single rfl j q
theorem r1 (j : S1024x257.Idx) (q : dot_S1024x512_S512x257_S1024x257_1_0_0_1_n_n.contr.Idx) :
    (dot_S1024x512_S512x257_S1024x257_1_0_0_1_n_n.rhsIdx j q 1).val = (j 1).val := by
  unfold DotDims.rhsIdx
  rw [dif_neg (show ¬(1 : Fin S512x257.rank) ∈ dot_S1024x512_S512x257_S1024x257_1_0_0_1_n_n.rhsBatch by decide),
    dif_pos (show (1 : Fin S512x257.rank) ∈ dot_S1024x512_S512x257_S1024x257_1_0_0_1_n_n.rhsNonContracting by decide)]
  rfl

/-- The product of a block of frames with a transform matrix, entry `(t, f)`: the sum over the samples. -/
theorem matmul_at (l : FVec Ideal S1024x512 .bf16) (r : FVec Ideal S512x257 .bf16) (t : Fin 1024) (f : Fin 257) :
    matmul dot_S1024x512_S512x257_S1024x257_1_0_0_1_n_n none l r (constant S1024x257 .f32 0x00000000#32) (ix2 t f)
      = ∑ k : Fin 512, l (ix2 t k) * r (ix2 k f) :=
  Cert.Lib.PlainDot.matmul_zero_apply dot_S1024x512_S512x257_S1024x257_1_0_0_1_n_n rfl rfl l0 l1 r0 r1 none l r (ix2 t f)

/-- The body's stored value at `(0, t, f)`. -/
theorem pay_apply (x0 : Vec Ideal S1x1024x512 .bf16) (x1 x2 : Vec Ideal S512x257 .bf16) (t : Fin 1024) (f : Fin 257) :
    k0_pay1 (F := Ideal) x0 x1 x2 (ix3 (0 : Fin 1) t f)
      = dB (∑ k : Fin 512, x0 (ix3 (0 : Fin 1) t k) * x1 (ix2 k f)) (∑ k : Fin 512, x0 (ix3 (0 : Fin 1) t k) * x2 (ix2 k f)) := by
  unfold k0_pay1
  rw [shapeCast_ab_1ab_apply]
  simp only [mulf, addf, maximumf, log, broadcast, Ideal.mulf_def, Ideal.addf_def, Ideal.maximumf_def, Ideal.log_def,
    matmul_at, shapeCast_self, scale_eq, shapeCast_1ab_ab_apply, Ideal.ofBits_def, dB]

end Cert.KernelIdeal.Stft

end
-- ==== Proof.Region0.lean ====
/-
  The first region's output array after the run.  The grid has 64 points; point `n` stages block `n` of the
  framed signal (all 1024 frames of one batch-and-channel row) and the two whole transform matrices, and writes back
  block `n` of the output.  The blocks tile the output, so after the run entry `(n, t, f)` of the output is the
  decibel value of frame `t` of row `n` at frequency `f`.
-/
import proofs.«104637_j67207648248372_1_alg».proof.Proof.Gen.KernelIdeal.Frame
import proofs.«104637_j67207648248372_1_alg».proof.Proof.Stft
import Idealize.ShloMosaic.Lib.Pipeline.Value

set_option maxRecDepth 16384

noncomputable section

open scoped BigOperators

namespace Cert.KernelIdeal.Region0

open Cert.KernelIdeal Cert.KernelIdeal.Gen Cert.KernelIdeal.Stft
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The spectrogram in decibels as one function of the framed signal and the two transform matrices. -/
def spec (a6 : Vec Ideal S64x1024x512 .bf16) (a7 a8 : Vec Ideal S512x257 .bf16) : Vec Ideal S64x1024x257 .f32 :=
  fun i => dB (∑ k : Fin 512, a6 (ix3 (i 0) (i 1) k) * a7 (ix2 k (i 2))) (∑ k : Fin 512, a6 (ix3 (i 0) (i 1) k) * a8 (ix2 k (i 2)))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the frames' and the output's block index is the point's number on the
    leading axis and zero elsewhere; the matrices' block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The body's stored value from blocks that are restrictions of whole arrays: row `n` of the framed signal and the
    two matrices. -/
theorem pay_of_blocks (x0 : Vec Ideal S1x1024x512 .bf16) (x1 x2 : Vec Ideal S512x257 .bf16)
    (a6 : Vec Ideal S64x1024x512 .bf16) (a7 a8 : Vec Ideal S512x257 .bf16) (n : Fin 64)
    (h0 : ∀ (t : Fin 1024) (k : Fin 512), x0 (ix3 (0 : Fin 1) t k) = a6 (ix3 n t k))
    (h1 : x1 = a7) (h2 : x2 = a8) (y : S1x1024x257.Idx) :
    k0_pay1 (F := Ideal) x0 x1 x2 y = spec a6 a7 a8 (ix3 n (y 1) (y 2)) := by
  obtain ⟨p, q, r, rfl⟩ : ∃ (p : Fin 1) (q : Fin 1024) (r : Fin 257), y = ix3 p q r := ⟨y 0, y 1, y 2, eq_ix3 y⟩
  obtain rfl : p = 0 := Subsingleton.elim _ _
  rw [pay_apply]
  subst h1 h2
  simp only [h0]
  rfl

/-- What point `t` writes back is block `t` of `spec` of the arrays as the region finds them. -/
theorem flushed_eq (c : Dev nD) (t : Fin cfg0.N) :
    (dat0 V c).flushed 3 t
      = ((cfg0.win 3).blk t).view.read (Elt Ideal) (spec (V c main_v6) (V c main_v7) (V c main_v8)) := by
  show (cfg0.win 3).cut (grid0.coords t) ((dat0 V c).after 3 t) = _
  rw [after0_3]
  unfold out0_3
  rw [View.canon_unit_zero hz3]
  simp only [View.ld_unit_zero (S := S1x1024x512) hz3, View.ld_unit_zero (S := S512x257) hz2]
  obtain ⟨e00, e01, e02, e10, e11, e20, e21, e30, e31, e32⟩ := idx_facts t
  have ht : t.val < 64 := by
    have h := t.isLt
    have e : cfg0.N = 64 := N_0
    omega
  funext j
  refine (pay_of_blocks (iblk0 V c 0 t) (iblk0 V c 1 t) (iblk0 V c 2 t) (V c main_v6) (V c main_v7) (V c main_v8)
    ⟨t.val, ht⟩ ?_ ?_ ?_ j).trans ?_
  · intro tt k
    show V c main_v6 (((cfg0.win 0).blk t).view.emb (ix3 (0 : Fin 1) tt k)) = V c main_v6 (ix3 ⟨t.val, ht⟩ tt k)
    refine congrArg _ (funext fun a => Fin.ext ?_)
    match a with
    | ⟨0, _⟩ => show win0_0.index t (0 : Fin 3) * 1 + 1 * 0 = t.val; omega
    | ⟨1, _⟩ => show win0_0.index t (1 : Fin 3) * 1024 + 1 * tt.val = tt.val; omega
    | ⟨2, _⟩ => show win0_0.index t (2 : Fin 3) * 512 + 1 * k.val = k.val; omega
  · funext y
    show V c main_v7 (((cfg0.win 1).blk t).view.emb y) = V c main_v7 y
    refine congrArg _ (funext fun a => Fin.ext ?_)
    match a with
    | ⟨0, _⟩ => show win0_1.index t (0 : Fin 2) * 512 + 1 * (y 0).val = (y 0).val; omega
    | ⟨1, _⟩ => show win0_1.index t (1 : Fin 2) * 257 + 1 * (y 1).val = (y 1).val; omega
  · funext y
    show V c main_v8 (((cfg0.win 2).blk t).view.emb y) = V c main_v8 y
    refine congrArg _ (funext fun a => Fin.ext ?_)
    match a with
    | ⟨0, _⟩ => show win0_2.index t (0 : Fin 2) * 512 + 1 * (y 0).val = (y 0).val; omega
    | ⟨1, _⟩ => show win0_2.index t (1 : Fin 2) * 257 + 1 * (y 1).val = (y 1).val; omega
  · show spec (V c main_v6) (V c main_v7) (V c main_v8) (ix3 ⟨t.val, ht⟩ (j 1) (j 2))
      = spec (V c main_v6) (V c main_v7) (V c main_v8) (((cfg0.win 3).blk t).view.emb j)
    refine congrArg _ (funext fun a => Fin.ext ?_)
    match a with
    | ⟨0, _⟩ =>
      show t.val = win0_3.index t (0 : Fin 3) * 1 + 1 * (j 0).val
      have hj : (j 0).val < 1 := (j 0).isLt
      omega
    | ⟨1, _⟩ => show (j 1).val = win0_3.index t (1 : Fin 3) * 1024 + 1 * (j 1).val; omega
    | ⟨2, _⟩ => show (j 2).val = win0_3.index t (2 : Fin 3) * 257 + 1 * (j 2).val; omega

/-- An index of the output is in point `t`'s block iff each coordinate is in the block's range on its axis. -/
theorem mem_blk (t : Fin cfg0.N) (i : S64x1024x257.Idx) :
    i ∈ ((cfg0.win 3).blk t).view.set ↔ ∀ a : Fin 3, win0_3.index t a * S1x1024x257.size a ≤ (i a).val
      ∧ (i a).val < win0_3.index t a * S1x1024x257.size a + S1x1024x257.size a := by
  show i ∈ ((View.whole main_v9).slice (win0_3.rect t)).set ↔ _
  rw [View.set_slice_whole, Rect.mem_set_unit]
  exact Iff.rfl

/-- Every output index lies in the block of the point numbered by its leading coordinate. -/
theorem cover (i : S64x1024x257.Idx) :
    ∃ t : Fin cfg0.N, (cfg0.win 3).flush t = true ∧ i ∈ ((cfg0.win 3).blk t).view.set := by
  have h0 : (i 0).val < 64 := (i 0).isLt
  have h1 : (i 1).val < 1024 := (i 1).isLt
  have h2 : (i 2).val < 257 := (i 2).isLt
  have hN : (i 0).val < cfg0.N := by rw [show cfg0.N = 64 from N_0]; exact h0
  obtain ⟨-, -, -, -, -, -, -, e30, e31, e32⟩ := idx_facts ⟨(i 0).val, hN⟩
  have e30' : win0_3.index ⟨(i 0).val, hN⟩ (0 : Fin 3) = (i 0).val := e30
  refine ⟨⟨(i 0).val, hN⟩, flush0_3 _, ?_⟩
  rw [mem_blk]
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    omega
  | ⟨1, _⟩ =>
    show win0_3.index ⟨(i 0).val, hN⟩ (1 : Fin 3) * 1024 ≤ (i 1).val ∧ (i 1).val < win0_3.index ⟨(i 0).val, hN⟩ (1 : Fin 3) * 1024 + 1024
    omega
  | ⟨2, _⟩ =>
    show win0_3.index ⟨(i 0).val, hN⟩ (2 : Fin 3) * 257 ≤ (i 2).val ∧ (i 2).val < win0_3.index ⟨(i 0).val, hN⟩ (2 : Fin 3) * 257 + 257
    omega

/-- The output array after the region: the spectrogram of the arrays the region found. -/
theorem final (c : Dev nD) :
    (dat0 V c).arrAt 3 cfg0.N = spec (V c main_v6) (V c main_v7) (V c main_v8) :=
  (dat0 V c).arrAt_eq_of_cover 3 _ (fun t _ => flushed_eq V c t) cover

end Cert.KernelIdeal.Region0

end
-- ==== Proof.Region1.lean ====
/-
  The second region's output array after the run.  The grid has 16 points; point `n` stages rows `4n … 4n+3` of
  the decibel spectrogram and the one-entry array holding the global maximum, and writes back the same rows of the
  output: each entry minus the maximum, clipped below at −80 (the word 0xC2A00000).  The blocks tile the output.
-/
import proofs.«104637_j67207648248372_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A value minus a level, clipped below at −80. -/
def clipAt (a g : EReal) : EReal := max (a - g) (Ideal.ofBits .f32 0xC2A00000#32)

/-- Every entry minus a common level, clipped below at −80. -/
def clip (a9 : Vec Ideal S64x1024x257 .f32) (g : EReal) : Vec Ideal S64x1024x257 .f32 :=
  fun i => clipAt (a9 i) g

theorem hz3 : (![0, 0, 0] : Fin 3 → Nat) = fun _ => 0 := funext fun a => by fin_cases a <;> rfl
theorem hz2 : (![0, 0] : Fin 2 → Nat) = fun _ => 0 := funext fun a => by fin_cases a <;> rfl

/-- The body's stored value at an index of the block: the loaded entry minus the one loaded level, clipped. -/
theorem pay_apply (v0 : Vec Ideal S1x1 .f32) (v2 : Vec Ideal S4x1024x257 .f32) (y : S4x1024x257.Idx) :
    k1_pay1 (F := Ideal) v0 v2 y = clipAt (v2 y) (v0 (ix2 (0 : Fin 1) (0 : Fin 1))) := by
  have e : extractAt ![0, 0] v0 inpos_S1x1_p0_0 = v0 (ix2 (0 : Fin 1) (0 : Fin 1)) := by
    unfold extractAt
    refine congrArg v0 (funext fun a => Fin.ext ?_)
    match a with
    | ⟨0, _⟩ => rfl
    | ⟨1, _⟩ => rfl
  unfold k1_pay1
  simp only [maximumf, subf, broadcast, shapeCast_self, Ideal.maximumf_def, Ideal.subf_def, Ideal.ofBits_def, e, clipAt]

/-- The printed index maps over the grid: the input rows and the output rows move together, block `n` at point `n`;
    the level's block index is zero. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- What point `t` writes back is block `t` of the clipped array. -/
theorem flushed_eq (c : Dev nD) (t : Fin cfg1.N) :
    (dat1 V c).flushed 2 t
      = ((cfg1.win 2).blk t).view.read (Elt Ideal) (clip (V c main_v9) (V c main_v11 (ix2 (0 : Fin 1) (0 : Fin 1)))) := by
  show (cfg1.win 2).cut (grid1.coords t) ((dat1 V c).after 2 t) = _
  rw [after1_2]
  unfold out1_2
  rw [View.canon_unit_zero hz3]
  simp only [View.ld_unit_zero (S := S1x1) hz2, View.ld_unit_zero (S := S4x1024x257) hz3]
  obtain ⟨e00, e01, e02, e10, e11, e20, e21, e22⟩ := idx_facts t
  funext j
  refine (pay_apply (iblk1 V c 1 t) (iblk1 V c 0 t) j).trans ?_
  show clipAt (V c main_v9 (((cfg1.win 0).blk t).view.emb j)) (V c main_v11 (((cfg1.win 1).blk t).view.emb (ix2 (0 : Fin 1) (0 : Fin 1))))
    = clipAt (V c main_v9 (((cfg1.win 2).blk t).view.emb j)) (V c main_v11 (ix2 (0 : Fin 1) (0 : Fin 1)))
  have h0 : ((cfg1.win 0).blk t).view.emb j = ((cfg1.win 2).blk t).view.emb j := by
    funext a; apply Fin.ext
    match a with
    | ⟨0, _⟩ => show win1_0.index t (0 : Fin 3) * 4 + 1 * (j 0).val = win1_2.index t (0 : Fin 3) * 4 + 1 * (j 0).val; omega
    | ⟨1, _⟩ => show win1_0.index t (1 : Fin 3) * 1024 + 1 * (j 1).val = win1_2.index t (1 : Fin 3) * 1024 + 1 * (j 1).val; omega
    | ⟨2, _⟩ => show win1_0.index t (2 : Fin 3) * 257 + 1 * (j 2).val = win1_2.index t (2 : Fin 3) * 257 + 1 * (j 2).val; omega
  have h1 : ((cfg1.win 1).blk t).view.emb (ix2 (0 : Fin 1) (0 : Fin 1)) = ix2 (0 : Fin 1) (0 : Fin 1) := by
    funext a; apply Fin.ext
    match a with
    | ⟨0, _⟩ => show win1_1.index t (0 : Fin 2) * 1 + 1 * 0 = 0; omega
    | ⟨1, _⟩ => show win1_1.index t (1 : Fin 2) * 1 + 1 * 0 = 0; omega
  rw [h0, h1]

/-- An index of the output is in point `t`'s block iff each coordinate is in the block's range on its axis. -/
theorem mem_blk (t : Fin cfg1.N) (i : S64x1024x257.Idx) :
    i ∈ ((cfg1.win 2).blk t).view.set ↔ ∀ a : Fin 3, win1_2.index t a * S4x1024x257.size a ≤ (i a).val
      ∧ (i a).val < win1_2.index t a * S4x1024x257.size a + S4x1024x257.size a := by
  show i ∈ ((View.whole main_v12).slice (win1_2.rect t)).set ↔ _
  rw [View.set_slice_whole, Rect.mem_set_unit]
  exact Iff.rfl

/-- Every output index lies in the block of the point numbered by a quarter of its leading coordinate. -/
theorem cover (i : S64x1024x257.Idx) :
    ∃ t : Fin cfg1.N, (cfg1.win 2).flush t = true ∧ i ∈ ((cfg1.win 2).blk t).view.set := by
  have h0 : (i 0).val < 64 := (i 0).isLt
  have h1 : (i 1).val < 1024 := (i 1).isLt
  have h2 : (i 2).val < 257 := (i 2).isLt
  have hN : (i 0).val / 4 < cfg1.N := by rw [show cfg1.N = 16 from N_1]; omega
  obtain ⟨-, -, -, -, -, e20, e21, e22⟩ := idx_facts ⟨(i 0).val / 4, hN⟩
  have e20' : win1_2.index ⟨(i 0).val / 4, hN⟩ (0 : Fin 3) = (i 0).val / 4 := e20
  refine ⟨⟨(i 0).val / 4, hN⟩, flush1_2 _, ?_⟩
  rw [mem_blk]
  intro a
  match a with
  | ⟨0, _⟩ =>
    show win1_2.index ⟨(i 0).val / 4, hN⟩ (0 : Fin 3) * 4 ≤ (i 0).val ∧ (i 0).val < win1_2.index ⟨(i 0).val / 4, hN⟩ (0 : Fin 3) * 4 + 4
    omega
  | ⟨1, _⟩ =>
    show win1_2.index ⟨(i 0).val / 4, hN⟩ (1 : Fin 3) * 1024 ≤ (i 1).val ∧ (i 1).val < win1_2.index ⟨(i 0).val / 4, hN⟩ (1 : Fin 3) * 1024 + 1024
    omega
  | ⟨2, _⟩ =>
    show win1_2.index ⟨(i 0).val / 4, hN⟩ (2 : Fin 3) * 257 ≤ (i 2).val ∧ (i 2).val < win1_2.index ⟨(i 0).val / 4, hN⟩ (2 : Fin 3) * 257 + 257
    omega

/-- The output array after the region: the entering spectrogram minus the entering level, clipped. -/
theorem final (c : Dev nD) :
    (dat1 V c).arrAt 2 cfg1.N = clip (V c main_v9) (V c main_v11 (ix2 (0 : Fin 1) (0 : Fin 1))) :=
  (dat1 V c).arrAt_eq_of_cover 2 _ (fun t _ => flushed_eq V c t) cover

end Cert.KernelIdeal.Region1

end
-- ==== Proof.KLayout.lean ====
/- The kernel program's host-side layout, read at an index: what the host operations before the first region
   leave in its three input arrays, and what the two after the second region make of its output. All at the
   exact (extended-real) reading, where a change of float format is the identity. -/
import proofs.«104637_j67207648248372_1_alg».proof.Proof.Gen.KernelIdeal.Frame
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.KLayout

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (ρ : Dev nD → PrngReg) (c : Dev nD)

/-! ## The tail: a reshape then a transpose, read at an index -/

/-- The reshape [64,1024,257] → [32,2,1024,257] followed by the transpose [0,3,2,1], read at (b, f, t, cc):
    the transpose reads the reshaped array at (b, cc, t, f), whose row-major position ((2b + cc)·1024 + t)·257 + f
    is that of (2b + cc, t, f) in the operand. -/
theorem tail_layout {α : Type} (y : S64x1024x257.Idx → α) (b : Fin 32) (f : Fin 257) (t : Fin 1024) (cc : Fin 2) :
    transpose S32x257x1024x2 [0, 3, 2, 1]
        (shapeCast S32x2x1024x257 y shapeCasts_S64x1024x257_S32x2x1024x257)
        transposes_S32x2x1024x257_S32x257x1024x2_0_3_2_1 (ix4 b f t cc)
      = y (ix3 ⟨2 * b.val + cc.val, by have := b.isLt; have := cc.isLt; omega⟩ t f) := by
  refine (transpose_apply _ _ _ (ix4 b f t cc) (ix4 b cc t f)
    (fun a => match a with | ⟨0, _⟩ => rfl | ⟨1, _⟩ => rfl | ⟨2, _⟩ => rfl | ⟨3, _⟩ => rfl)).trans ?_
  refine shapeCast_apply _ _ _ _ ?_
  rw [Shape.rowMajor_val_three, Shape.rowMajor_val_four]
  show ((2 * b.val + cc.val) * 1024 + t.val) * 257 + f.val = ((b.val * 2 + cc.val) * 1024 + t.val) * 257 + f.val
  omega

/-- What the program's last two host operations leave in the result buffer, as a term over the second region's
    output. -/
theorem v14_eq : (Gen.W7 (F := Ideal) m ρ c (Proc.devRef .tc main_v14) : S32x257x1024x2.Idx → EReal)
    = transpose S32x257x1024x2 [0, 3, 2, 1]
        (shapeCast S32x2x1024x257 (Gen.W6 (F := Ideal) m ρ c (Proc.devRef .tc main_v12) : S64x1024x257.Idx → EReal)
          shapeCasts_S64x1024x257_S32x2x1024x257)
        transposes_S32x2x1024x257_S32x257x1024x2_0_3_2_1 := by
  dsimp only [Gen.W7, Gen.hostOps2]
  after_results
  rfl

/-- The result at (b, f, t, cc) is the second region's output at (2b + cc, t, f). -/
theorem v14_apply (b : Fin 32) (f : Fin 257) (t : Fin 1024) (cc : Fin 2) :
    (Gen.W7 (F := Ideal) m ρ c (Proc.devRef .tc main_v14) : S32x257x1024x2.Idx → EReal) (ix4 b f t cc)
      = (Gen.W6 (F := Ideal) m ρ c (Proc.devRef .tc main_v12) : S64x1024x257.Idx → EReal)
          (ix3 ⟨2 * b.val + cc.val, by have := b.isLt; have := cc.isLt; omega⟩ t f) := by
  rw [v14_eq]
  exact tail_layout _ b f t cc

/-! ## The two weight arrays: a change of format of an argument -/

/-- The first region's second input is the program's second argument (a change of float format is the identity
    on extended reals, and no earlier operation writes the argument). -/
theorem v7_eq : (Gen.V3 (F := Ideal) m ρ c main_v7 : S512x257.Idx → EReal) = m ((c : Thread nD τ).loc main_arg1) := by
  dsimp only [Gen.V3, Gen.W3, Gen.W2, Gen.W1, Gen.W0, Gen.hostOps0_2, Gen.hostOps0_1, Gen.hostOps0]
  after_results
  rfl

/-- The first region's third input is the program's third argument. -/
theorem v8_eq : (Gen.V3 (F := Ideal) m ρ c main_v8 : S512x257.Idx → EReal) = m ((c : Thread nD τ).loc main_arg2) := by
  dsimp only [Gen.V3, Gen.W3, Gen.W2, Gen.W1, Gen.W0, Gen.hostOps0_2, Gen.hostOps0_1, Gen.hostOps0]
  after_results
  rfl

/-! ## The framed signal: pad, reshape, two shifted slices, concatenate, reshape -/

/-- Overlapping frames of a padded signal: the signal's last axis cut into 1025 rows of 256, rows 0..1023 and rows
    1..1024 laid side by side (frame t is rows t and t+1, 512 samples), the two leading axes merged. -/
def frames {α : Type} (xp : S32x2x262400.Idx → α) : S64x1024x512.Idx → α :=
  shapeCast S64x1024x512
    (concatenate S32x2x1024x512 3
      [⟨S32x2x1024x256, extractStridedSlice S32x2x1024x256 ![0, 0, 0, 0]
          (shapeCast S32x2x1025x256 xp shapeCasts_S32x2x262400_S32x2x1025x256) slices_S32x2x1025x256_S32x2x1024x256_0_0_0_0⟩,
       ⟨S32x2x1024x256, extractStridedSlice S32x2x1024x256 ![0, 0, 1, 0]
          (shapeCast S32x2x1025x256 xp shapeCasts_S32x2x262400_S32x2x1025x256) slices_S32x2x1025x256_S32x2x1024x256_0_0_1_0⟩]
      concatenates_S32x2x1024x256_S32x2x1024x256_S32x2x1024x512_d3)
    shapeCasts_S32x2x1024x512_S64x1024x512

/-- The signal padded by 128 zeros on each side of its last axis. -/
def XP (x : S32x2x262144.Idx → EReal) : S32x2x262400.Idx → EReal :=
  pad S32x2x262400 ![0, 0, 128] ![0, 0, 128] ![0, 0, 0] x (fun _ : S_.Idx => (0 : EReal))
    pads_S32x2x262144_S32x2x262400_000_000_1281280 h_S_

/-- The padding value: the integer 0 converted to a float is the extended real 0. -/
theorem padv_eq : (sitofp (F := Ideal) .bf16 (constantI S_ 32 0#32) : S_.Idx → EReal) = fun _ => (0 : EReal) := by
  funext i
  show (((0#32 : BitVec 32).toInt : ℝ) : EReal) = 0
  simp

/-- Frame (bc, t) at sample d is the padded signal of batch bc / 2, channel bc % 2 at position 256·t + d:
    the outer reshape splits bc; d < 256 falls in the first slice (row t, column d), d ≥ 256 in the second
    (row t + 1, column d − 256); the inner reshape puts row r, column e at position 256·r + e. -/
theorem frames_apply {α : Type} (xp : S32x2x262400.Idx → α) (bc : Fin 64) (t : Fin 1024) (d : Fin 512) :
    frames xp (ix3 bc t d)
      = xp (ix3 (⟨bc.val / 2, by have := bc.isLt; omega⟩ : Fin 32) (⟨bc.val % 2, by omega⟩ : Fin 2)
          (⟨256 * t.val + d.val, by have := t.isLt; have := d.isLt; omega⟩ : Fin 262400)) := by
  have hbc := bc.isLt
  have ht := t.isLt
  have hd := d.isLt
  have hB : bc.val / 2 < 32 := by omega
  have hC : bc.val % 2 < 2 := by omega
  unfold frames
  -- the outer reshape: [64,1024,512] at (bc, t, d) reads [32,2,1024,512] at (bc / 2, bc % 2, t, d)
  refine (shapeCast_apply _ _ (ix3 bc t d) (ix4 (⟨bc.val / 2, hB⟩ : Fin 32) (⟨bc.val % 2, hC⟩ : Fin 2) t d)
    (by rw [Shape.rowMajor_val_three, Shape.rowMajor_val_four]
        show ((bc.val / 2 * 2 + bc.val % 2) * 1024 + t.val) * 512 + d.val = (bc.val * 1024 + t.val) * 512 + d.val
        omega)).trans ?_
  by_cases hlt : d.val < 256
  · -- the first piece, at the same coordinates
    refine (concatenate_pair_apply_left (t := S32x2x1024x512) (s₁ := S32x2x1024x256) (s₂ := S32x2x1024x256) (3 : Fin 4) _ _ _
      (ix4 (⟨bc.val / 2, hB⟩ : Fin 32) (⟨bc.val % 2, hC⟩ : Fin 2) t d) rfl
      (ix4 (⟨bc.val / 2, hB⟩ : Fin 32) (⟨bc.val % 2, hC⟩ : Fin 2) t (⟨d.val, hlt⟩ : Fin 256))
      (fun b => match b with | ⟨0, _⟩ => rfl | ⟨1, _⟩ => rfl | ⟨2, _⟩ => rfl | ⟨3, _⟩ => rfl)).trans ?_
    -- the slice at offset (0, 0, 0, 0)
    refine (extractStridedSlice_apply _ _ _ _
      (ix4 (⟨bc.val / 2, hB⟩ : Fin 32) (⟨bc.val % 2, hC⟩ : Fin 2) (⟨t.val, by omega⟩ : Fin 1025) (⟨d.val, hlt⟩ : Fin 256))
      (fun a => match a with
        | ⟨0, _⟩ => by show bc.val / 2 = 0 + bc.val / 2; omega
        | ⟨1, _⟩ => by show bc.val % 2 = 0 + bc.val % 2; omega
        | ⟨2, _⟩ => by show t.val = 0 + t.val; omega
        | ⟨3, _⟩ => by show d.val = 0 + d.val; omega)).trans ?_
    -- the inner reshape: [32,2,1025,256] at (·, ·, t, d) reads [32,2,262400] at 256·t + d
    refine shapeCast_apply _ _ _ _ ?_
    rw [Shape.rowMajor_val_three, Shape.rowMajor_val_four]
    show (bc.val / 2 * 2 + bc.val % 2) * 262400 + (256 * t.val + d.val)
      = ((bc.val / 2 * 2 + bc.val % 2) * 1025 + t.val) * 256 + d.val
    omega
  · -- the second piece, its last coordinate the first piece's extent less
    have hge : 256 ≤ d.val := Nat.le_of_not_lt hlt
    refine (concatenate_pair_apply_right (t := S32x2x1024x512) (s₁ := S32x2x1024x256) (s₂ := S32x2x1024x256) (3 : Fin 4) _ _ _
      (ix4 (⟨bc.val / 2, hB⟩ : Fin 32) (⟨bc.val % 2, hC⟩ : Fin 2) t d) rfl rfl
      (ix4 (⟨bc.val / 2, hB⟩ : Fin 32) (⟨bc.val % 2, hC⟩ : Fin 2) t (⟨d.val - 256, by omega⟩ : Fin 256))
      (fun b hb => match b, hb with
        | ⟨0, _⟩, _ => rfl | ⟨1, _⟩, _ => rfl | ⟨2, _⟩, _ => rfl
        | ⟨3, _⟩, hb => absurd rfl hb)
      (by show d.val - 256 + 256 = d.val; omega)).trans ?_
    -- the slice at offset (0, 0, 1, 0)
    refine (extractStridedSlice_apply _ _ _ _
      (ix4 (⟨bc.val / 2, hB⟩ : Fin 32) (⟨bc.val % 2, hC⟩ : Fin 2) (⟨t.val + 1, by omega⟩ : Fin 1025)
        (⟨d.val - 256, by omega⟩ : Fin 256))
      (fun a => match a with
        | ⟨0, _⟩ => by show bc.val / 2 = 0 + bc.val / 2; omega
        | ⟨1, _⟩ => by show bc.val % 2 = 0 + bc.val % 2; omega
        | ⟨2, _⟩ => by show t.val + 1 = 1 + t.val; omega
        | ⟨3, _⟩ => by show d.val - 256 = 0 + (d.val - 256); omega)).trans ?_
    -- the inner reshape: row t + 1, column d − 256 is position 256·t + d
    refine shapeCast_apply _ _ _ _ ?_
    rw [Shape.rowMajor_val_three, Shape.rowMajor_val_four]
    show (bc.val / 2 * 2 + bc.val % 2) * 262400 + (256 * t.val + d.val)
      = ((bc.val / 2 * 2 + bc.val % 2) * 1025 + (t.val + 1)) * 256 + (d.val - 256)
    omega

/-! ## The first region's first input -/

/-- What the pad leaves in its result buffer, as the program states it: the change of float format of the first
    argument is the identity on extended reals, and no earlier operation writes the argument. -/
theorem v1_raw : (Gen.W2 (F := Ideal) m ρ c (Proc.devRef .tc main_v1) : S32x2x262400.Idx → EReal)
    = pad (s := S32x2x262144) (α := EReal) S32x2x262400 ![0, 0, 128] ![0, 0, 128] ![0, 0, 0]
        (m ((c : Thread nD τ).loc main_arg0) : S32x2x262144.Idx → EReal)
        (sitofp (F := Ideal) .bf16 (constantI S_ 32 0#32) : S_.Idx → EReal)
        pads_S32x2x262144_S32x2x262400_000_000_1281280 h_S_ := by
  dsimp only [Gen.W2, Gen.hostOps0_1]
  after_results
  rfl

/-- The pad's result buffer holds the padded first argument. -/
theorem v1_eq : (Gen.W2 (F := Ideal) m ρ c (Proc.devRef .tc main_v1) : S32x2x262400.Idx → EReal)
    = XP (m ((c : Thread nD τ).loc main_arg0)) := by
  refine (v1_raw m ρ c).trans ?_
  unfold XP
  rw [padv_eq]

/-- The first region's first input is the framing of what the pad left in its result buffer. -/
theorem v6_eq' : (Gen.V3 (F := Ideal) m ρ c main_v6 : S64x1024x512.Idx → EReal)
    = frames (Gen.W2 (F := Ideal) m ρ c (Proc.devRef .tc main_v1) : S32x2x262400.Idx → EReal) := by
  dsimp only [Gen.V3, Gen.W3, Gen.hostOps0_2]
  after_results
  rfl

/-- The first region's first input is the framed, padded first argument. -/
theorem v6_eq : (Gen.V3 (F := Ideal) m ρ c main_v6 : S64x1024x512.Idx → EReal)
    = frames (XP (m ((c : Thread nD τ).loc main_arg0))) :=
  (v6_eq' m ρ c).trans (congrArg (frames (α := EReal)) (v1_eq m ρ c))

/-- Entry (bc, t, d) of the first region's first input is the padded signal at (bc / 2, bc % 2, 256·t + d). -/
theorem v6_apply (bc : Fin 64) (t : Fin 1024) (d : Fin 512) :
    (Gen.V3 (F := Ideal) m ρ c main_v6 : S64x1024x512.Idx → EReal) (ix3 bc t d)
      = XP (m ((c : Thread nD τ).loc main_arg0))
          (ix3 (⟨bc.val / 2, by have := bc.isLt; omega⟩ : Fin 32) (⟨bc.val % 2, by omega⟩ : Fin 2)
            (⟨256 * t.val + d.val, by have := t.isLt; have := d.isLt; omega⟩ : Fin 262400)) := by
  rw [v6_eq]
  exact frames_apply _ bc t d

end Cert.KernelIdeal.KLayout
end
-- ==== Proof.KValue.lean ====
/-
  The idealized kernel program's result, read at an index.  Walking the boundary contents back from the result
  buffer: the final transpose and reshape read the second region's output at row `2·b + c`; that output is the
  first region's output minus the global maximum, clipped at −80; the global maximum is the host's maximum over
  the whole of the first region's output; and the first region's output is the decibel spectrogram of the framed
  signal and the two transform matrices as they stood when the region was entered.
-/
import proofs.«104637_j67207648248372_1_alg».proof.Proof.Region0
import proofs.«104637_j67207648248372_1_alg».proof.Proof.Region1
import proofs.«104637_j67207648248372_1_alg».proof.Proof.KLayout
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The decibel spectrogram the first region leaves, from the arrays it found. -/
abbrev raw (c : Dev nD) : Vec Ideal S64x1024x257 .f32 :=
  Region0.spec (V3 m ρ c main_v6) (V3 m ρ c main_v7) (V3 m ρ c main_v8)

/-- After the first region its output buffer holds the spectrogram. -/
theorem w4_v9 (c : Dev nD) : (W4 m ρ c (Proc.devRef .tc main_v9) : S64x1024x257.Idx → EReal) = raw m ρ c :=
  (W4_arr m ρ c 3).trans (Region0.final (V3 m ρ) c)

/-- The host operations between the regions leave that buffer alone. -/
theorem v5_v9 (c : Dev nD) : (V5 m ρ c main_v9 : S64x1024x257.Idx → EReal) = raw m ρ c := by
  have e : (V5 m ρ c main_v9 : S64x1024x257.Idx → EReal) = W4 m ρ c (Proc.devRef .tc main_v9) := by
    show StableHlo.after hostOps1 (W4 m ρ c) (Proc.devRef .tc main_v9) = _
    after_results
  rw [e, w4_v9]

/-- The one-entry array the second region reads holds the maximum of the whole spectrogram. -/
theorem v5_v11 (c : Dev nD) :
    (V5 m ρ c main_v11 : S1x1.Idx → EReal) (ix2 (0 : Fin 1) (0 : Fin 1))
      = Host.reduce (FloatOps.maximumf (F := Ideal) (φ := .f32)) (raw m ρ c) (constant (F := Ideal) S_ .f32 0xFF800000#32)
          reducesTo_S64x1024x257_S_d0_1_2 h_S_ ix0 := by
  have e : (V5 m ρ c main_v11 : S1x1.Idx → EReal)
      = shapeCast S1x1 (Host.reduce (FloatOps.maximumf (F := Ideal) (φ := .f32)) (W4 m ρ c (Proc.devRef .tc main_v9) : S64x1024x257.Idx → EReal)
          (constant (F := Ideal) S_ .f32 0xFF800000#32) reducesTo_S64x1024x257_S_d0_1_2 h_S_) shapeCasts_S_S1x1 := by
    show StableHlo.after hostOps1 (W4 m ρ c) (Proc.devRef .tc main_v11) = _
    after_results
    rfl
  rw [e, w4_v9]
  exact shapeCast_apply _ _ _ _ rfl

/-- The second region's output: the spectrogram minus its maximum, clipped. -/
theorem w6_v12 (c : Dev nD) :
    (W6 m ρ c (Proc.devRef .tc main_v12) : S64x1024x257.Idx → EReal)
      = Region1.clip (raw m ρ c) (Host.reduce (FloatOps.maximumf (F := Ideal) (φ := .f32)) (raw m ρ c)
          (constant (F := Ideal) S_ .f32 0xFF800000#32) reducesTo_S64x1024x257_S_d0_1_2 h_S_ ix0) := by
  refine ((W6_arr m ρ c 2).trans (Region1.final (V5 m ρ) c)).trans ?_
  rw [v5_v9, v5_v11]

/-- The result at `(b, f, t, cc)`. -/
theorem result_apply (c : Dev nD) (b : Fin 32) (f : Fin 257) (t : Fin 1024) (cc : Fin 2) :
    (W7 m ρ c (Proc.devRef .tc main_v14) : S32x257x1024x2.Idx → EReal) (ix4 b f t cc)
      = Region1.clipAt (raw m ρ c (ix3 ⟨2 * b.val + cc.val, by omega⟩ t f))
          (Host.reduce (FloatOps.maximumf (F := Ideal) (φ := .f32)) (raw m ρ c)
              (constant (F := Ideal) S_ .f32 0xFF800000#32) reducesTo_S64x1024x257_S_d0_1_2 h_S_ ix0) := by
  rw [KLayout.v14_apply m ρ c b f t cc, w6_v12]
  rfl

end Cert.KernelIdeal.KValue

end
-- ==== Proof.KRun.lean ====
/-
  The idealized kernel program's run with its RESULT named.  @main is seven segments: three stretches of host
  operations (conversion to bf16, zero padding, framing by reshape / slice / concatenate), the STFT-to-decibel
  region, the global maximum on the host, the subtract-and-clip region, and the final reshape and transpose.
  The buffer contents at each segment boundary are a fold from the launch memory; the run below ends with every
  unscoped buffer at the last boundary's contents, so the result array is that fold read at the result buffer,
  and the three argument arrays are as launched.
-/
import proofs.«104637_j67207648248372_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the last
    boundary's contents and the argument arrays are unchanged. -/
theorem run_value : θ_run defs (onTc (τ := τ) (main (F := F))) ⟨m, fun _ => 0, ρ⟩ (fun r => ∀ c : Dev nD,
      r.2.mem ((c.tc : Thread nD τ).loc main_v14) = W7 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v14 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.KRun

end
-- ==== Proof.RefStages.lean ====
/-
  The reference program read at an index: the framed signal (a gather of overlapping frames whose start
  indices are computed on 32-bit words), the two spectral sums, the power in decibels, and the final
  clamp against the global maximum.
-/
import proofs.«104637_j67207648248372_1_alg».proof.Proof.Gen.ReferenceIdeal.Read
import Idealize.ShloMosaic.Lib.ValueIdx
import Idealize.ShloMosaic.Lib.WordArith
import Idealize.ShloMosaic.PureOps.Ideal.Laws

noncomputable section

open scoped BigOperators

namespace Cert.ReferenceIdeal.RefStages

open Cert.ReferenceIdeal Cert.ReferenceIdeal.Gen Idealize.ShloMosaic Idealize.ShloMosaic.ValueIdx

/-! ## The start indices: `256 t + d` as a 32-bit word -/

section Words
variable {F : FTy → Type} [FloatOps F]

/-- The frame arithmetic on 32-bit words: `t · 256 + d` does not wrap, since `256 · 1023 + 511 < 2³²`. -/
theorem v9_apply (t : Fin 1024) (d : Fin 512) :
    Read.val_main_v9 (F := F) (ix2 t d) = BitVec.ofNat 32 (256 * t.val + d.val) := by
  rw [Read.val_main_v9_apply, Read.val_main_v7_apply, Read.val_main_v8_apply, Read.val_main_v4_apply,
    Read.val_main_v6_apply, Read.val_main_v2_apply, Read.val_main_v3_apply, Read.val_main_v1_apply,
    Read.val_main_v5_apply, Read.val_main_c_0_apply]
  show IntOp.addi (IntOp.muli (BitVec.ofNat 32 t.val) 256#32) (BitVec.ofNat 32 d.val) = _
  unfold IntOp.addi IntOp.muli
  apply BitVec.eq_of_toNat_eq
  rw [BitVec.toNat_add, BitVec.toNat_mul, BitVec.toNat_ofNat, BitVec.toNat_ofNat, BitVec.toNat_ofNat,
    BitVec.toNat_ofNat]
  have := t.isLt; have := d.isLt
  omega

/-- The start index after the wrap-around of negative indices (`select (w < 0) (w + 262400) w`): the word is not
    negative read signed, so it stays `256 t + d`. -/
theorem v14_apply (t : Fin 1024) (d : Fin 512) :
    Read.val_main_v14 (F := F) (ix2 t d) = BitVec.ofNat 32 (256 * t.val + d.val) := by
  rw [Read.val_main_v14_apply, Read.val_main_v11_apply, Read.val_main_v10_apply, Read.val_main_c_1_apply,
    v9_apply]
  have hlt : (BitVec.ofNat 32 (256 * t.val + d.val)).slt 0#32 = false := by
    simp only [BitVec.slt, BitVec.toInt_zero, decide_eq_false_iff_not, Int.not_lt]
    rw [WordArith.toInt_ofNat_small _ (by have := t.isLt; have := d.isLt; omega)]; omega
  show Scalar.select (BitVec.ofBool ((BitVec.ofNat 32 (256 * t.val + d.val)).slt 0#32)) _ _ = _
  rw [hlt]
  exact select_zero _ _

end Words

/-! ## The gather of frames -/

/-- Sample `256 t + d` of the padded signal: offset `d` of frame `t` (the last one is `256 · 1023 + 511 = 262399`). -/
abbrev fidx (t : Fin 1024) (d : Fin 512) : Fin 262400 :=
  ⟨256 * t.val + d.val, by have := t.isLt; have := d.isLt; omega⟩

/-- The gather at an index: frame `t`, offset `d` of the padded signal is its sample `256 t + d`. -/
theorem v16_apply (x : S32x2x262144.Idx → EReal) (b : Fin 32) (cc : Fin 2) (t : Fin 1024) (d : Fin 512) :
    Read.val_main_v16 (F := Ideal) x (ix4 b cc t d)
      = Read.val_main_v0 (F := Ideal) x (ix3 b cc (fidx t d)) := by
  unfold Read.val_main_v16 Host.gather
  congr 1
  funext a
  refine Fin.ext ?_
  match a with
  | ⟨0, _⟩ =>
    show gather_S32x2x262400_S1024x512x1_S32x2x1024x512_01_2_n_n_2_2_3221.start _ _ 0
      + gather_S32x2x262400_S1024x512x1_S32x2x1024x512_01_2_n_n_2_2_3221.batchCoord _ 0
      + gather_S32x2x262400_S1024x512x1_S32x2x1024x512_01_2_n_n_2_2_3221.offCoord _ 0 = b.val
    rw [GatherDims.batchCoord_eq_zero _ _ _ List.not_mem_nil]
    unfold GatherDims.start GatherDims.offCoord
    rw [dif_neg (by decide), dif_pos (by decide)]
    simp only [Nat.zero_add]
    rfl
  | ⟨1, _⟩ =>
    show gather_S32x2x262400_S1024x512x1_S32x2x1024x512_01_2_n_n_2_2_3221.start _ _ 1
      + gather_S32x2x262400_S1024x512x1_S32x2x1024x512_01_2_n_n_2_2_3221.batchCoord _ 1
      + gather_S32x2x262400_S1024x512x1_S32x2x1024x512_01_2_n_n_2_2_3221.offCoord _ 1 = cc.val
    rw [GatherDims.batchCoord_eq_zero _ _ _ List.not_mem_nil]
    unfold GatherDims.start GatherDims.offCoord
    rw [dif_neg (by decide), dif_pos (by decide)]
    simp only [Nat.zero_add]
    rfl
  | ⟨2, _⟩ =>
    show gather_S32x2x262400_S1024x512x1_S32x2x1024x512_01_2_n_n_2_2_3221.start _ _ 2
      + gather_S32x2x262400_S1024x512x1_S32x2x1024x512_01_2_n_n_2_2_3221.batchCoord _ 2
      + gather_S32x2x262400_S1024x512x1_S32x2x1024x512_01_2_n_n_2_2_3221.offCoord _ 2 = 256 * t.val + d.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S32x2x262400_S1024x512x1_S32x2x1024x512_01_2_n_n_2_2_3221.startIndexMap
      from List.mem_singleton.mpr rfl)]
    have hsi : gather_S32x2x262400_S1024x512x1_S32x2x1024x512_01_2_n_n_2_2_3221.siIdx (ix4 b cc t d)
        ⟨List.idxOf (2 : Fin 3) gather_S32x2x262400_S1024x512x1_S32x2x1024x512_01_2_n_n_2_2_3221.startIndexMap,
          List.idxOf_lt_length_iff.2 (List.mem_singleton.mpr rfl)⟩ = ix3 t d ⟨0, Nat.one_pos⟩ := by
      funext e; refine Fin.ext ?_
      match e with
      | ⟨0, _⟩ => rfl
      | ⟨1, _⟩ => rfl
      | ⟨2, _⟩ => rfl
    rw [hsi, Read.val_main_v15_apply]
    have e15 : Read.idx_main_v15 (ix3 t d ⟨0, Nat.one_pos⟩) = ix2 t d := by
      funext e
      match e with
      | ⟨0, _⟩ => rfl
      | ⟨1, _⟩ => rfl
    have hb : 256 * t.val + d.val < 2 ^ 31 := by have := t.isLt; have := d.isLt; omega
    rw [e15, v14_apply, WordArith.toInt_ofNat_small _ hb]
    show min (Int.toNat ((256 * t.val + d.val : Nat) : Int)) (262400 - 1) = _
    rw [Int.toNat_natCast]
    exact Nat.min_eq_left (by have := t.isLt; have := d.isLt; omega)

/-! ## The power spectrum in decibels -/

/-- The decibel stage at an index: with `X d` the padded signal's sample `256 t + d` of channel `(b, cc)`, ten times
    the logarithm of the power `(∑ X·kr)² + (∑ X·ki)²` at frequency `f` (floored at the constant the pattern
    `0x2EDBE6FF` denotes), divided by the constant the pattern `0x40135D8E` denotes. -/
theorem v29_apply (x : S32x2x262144.Idx → EReal) (kr ki : S512x257.Idx → EReal)
    (b : Fin 32) (f : Fin 257) (t : Fin 1024) (cc : Fin 2) :
    Read.val_main_v29 (F := Ideal) x kr ki (ix4 b f t cc)
      = Ideal.div (Ideal.ofBits .f32 0x41200000#32 * Ideal.log (max
          ((∑ d : Fin 512, Read.val_main_v0 (F := Ideal) x (ix3 b cc (fidx t d)) * kr (ix2 d f))
              * (∑ d : Fin 512, Read.val_main_v0 (F := Ideal) x (ix3 b cc (fidx t d)) * kr (ix2 d f))
            + (∑ d : Fin 512, Read.val_main_v0 (F := Ideal) x (ix3 b cc (fidx t d)) * ki (ix2 d f))
              * (∑ d : Fin 512, Read.val_main_v0 (F := Ideal) x (ix3 b cc (fidx t d)) * ki (ix2 d f)))
          (Ideal.ofBits .f32 0x2EDBE6FF#32))) (Ideal.ofBits .f32 0x40135D8E#32) := by
  have e22 : Read.idx_main_v22 (ix4 b f t cc) = ix4 b cc t f := by
    funext a
    match a with
    | ⟨0, _⟩ => rfl
    | ⟨1, _⟩ => rfl
    | ⟨2, _⟩ => rfl
    | ⟨3, _⟩ => rfl
  have el17 : ∀ k : Fin 512, Read.lidx_main_v17 (ix4 b cc t f) k = ix4 b cc t k := fun k => by
    funext a
    match a with
    | ⟨0, _⟩ => rfl
    | ⟨1, _⟩ => rfl
    | ⟨2, _⟩ => rfl
    | ⟨3, _⟩ => rfl
  have er17 : ∀ k : Fin 512, Read.ridx_main_v17 (ix4 b cc t f) k = ix2 k f := fun k => by
    funext a
    match a with
    | ⟨0, _⟩ => rfl
    | ⟨1, _⟩ => rfl
  have el18 : ∀ k : Fin 512, Read.lidx_main_v18 (ix4 b cc t f) k = ix4 b cc t k := fun k => by
    funext a
    match a with
    | ⟨0, _⟩ => rfl
    | ⟨1, _⟩ => rfl
    | ⟨2, _⟩ => rfl
    | ⟨3, _⟩ => rfl
  have er18 : ∀ k : Fin 512, Read.ridx_main_v18 (ix4 b cc t f) k = ix2 k f := fun k => by
    funext a
    match a with
    | ⟨0, _⟩ => rfl
    | ⟨1, _⟩ => rfl
  rw [Read.val_main_v29_apply, Read.val_main_v28_apply, Read.val_main_cst_4_apply, Read.val_main_v27_apply,
    Read.val_main_v26_apply, Read.val_main_cst_3_apply, Read.val_main_v25_apply, Read.val_main_v24_apply,
    Read.val_main_v23_apply, Read.val_main_cst_apply, Read.val_main_v22_apply, e22, Read.val_main_v21_apply,
    Read.val_main_v19_apply, Read.val_main_v20_apply, Read.val_main_v17_apply, Read.val_main_v18_apply]
  simp only [el17, er17, el18, er18, v16_apply]
  rfl

/-! ## The clamp against the global maximum -/

/-- The last stage at an index: the decibel value minus the global maximum (a fold of `max` over every
    element, left as it stands), clamped below at the constant the pattern `0xC2A00000` denotes. -/
theorem v34_apply (x : S32x2x262144.Idx → EReal) (kr ki : S512x257.Idx → EReal) (i : S32x257x1024x2.Idx) :
    Read.val_main_v34 (F := Ideal) x kr ki i
      = max (Read.val_main_v29 (F := Ideal) x kr ki i
          - Host.reduce (FloatOps.maximumf (F := Ideal) (φ := .f32)) (Read.val_main_v29 (F := Ideal) x kr ki)
              (constant (F := Ideal) S_ .f32 0xFF800000#32) reducesTo_S32x257x1024x2_S_d0_1_2_3 h_S_ ix0)
        (Ideal.ofBits .f32 0xC2A00000#32) := by
  rw [Read.val_main_v34_apply, Read.val_main_v33_apply, Read.val_main_cst_6_apply, Read.val_main_v32_apply,
    Read.val_main_v31_apply]
  rfl

end Cert.ReferenceIdeal.RefStages

end
-- ==== Proof.MaxReduce.lean ====
import proofs.«104637_j67207648248372_1_alg».proof.KernelIdeal
import proofs.«104637_j67207648248372_1_alg».proof.ReferenceIdeal
import Idealize.ShloMosaic.PureOps.Ideal.Laws
import Idealize.ShloMosaic.PureOps.Reduce
import Idealize.ShloMosaic.Lib.ValueIdx

/-!
# The maximum of all entries does not depend on how the entries are arranged

Both programs take the maximum of every entry of an array, starting from minus infinity: one over a
`[64, 1024, 257]` array, the other over a `[32, 257, 1024, 2]` array holding the same numbers at
`(b, f, t, c) ↦ (2 b + c, t, f)`. At the extended reals `maximumf` is `max`, which is commutative,
associative and idempotent, and minus infinity is its identity `⊥`; so each reduction is the
supremum `⨆` of its array's entries (`reduce_max_total`), and two families with the same set of
values have the same supremum (`iSup_rearranged`). `max_all_eq` puts the two together.
-/

namespace Cert.MaxReduce

open Idealize.ShloMosaic Idealize.ShloMosaic.ValueIdx

/-- The f32 pattern of minus infinity reads as the least extended real. -/
theorem ofBits_neg_inf : Ideal.ofBits .f32 0xFF800000#32 = (⊥ : EReal) := by
  simp [Ideal.ofBits, Ideal.ieee]

/-- A maximum-reduction whose result has a single index, started from the least element, is the
    supremum of all the entries: every source index reduces to that one result index, the fold of
    `max` from `⊥` over a finite set is its `Finset.sup`, and over the whole type that is `⨆`. -/
theorem reduce_max_total {s t u : Shape} {axes : List (Fin s.rank)} {φ : FTy} [Subsingleton t.Idx]
    (x : s.Idx → EReal) (init : u.Idx → EReal) (h : s.ReducesTo axes t) (hu : 0 < u.numel)
    (h0 : init (Shape.Idx.first hu) = ⊥) (j : t.Idx) :
    Host.reduce (FloatOps.maximumf (F := Ideal) (φ := φ)) x init h hu j = ⨆ i, x i := by
  rw [Host.reduce_eq_fold, h0]
  have hf : (Finset.univ.filter fun i => h.drop i = j) = Finset.univ :=
    Finset.filter_true_of_mem fun i _ => Subsingleton.elim _ _
  rw [hf]
  exact Finset.sup_univ_eq_iSup x

/-- The same with the programs' initial value: the constant of pattern `0xFF800000` (minus infinity). -/
theorem reduce_max_total_const {s t u : Shape} {axes : List (Fin s.rank)} [Subsingleton t.Idx]
    (x : s.Idx → EReal) (h : s.ReducesTo axes t) (hu : 0 < u.numel) (j : t.Idx) :
    Host.reduce (FloatOps.maximumf (F := Ideal) (φ := .f32)) x (constant (F := Ideal) u .f32 0xFF800000#32) h hu j
      = ⨆ i, x i :=
  reduce_max_total x _ h hu ofBits_neg_inf j

/-- Two arrays holding the same numbers, the second at `(b, f, t, c)` what the first holds at
    `(2 b + c, t, f)`, have the same supremum: each entry of either is an entry of the other
    (a row `r < 64` of the first is `2 (r / 2) + r % 2`). -/
theorem iSup_rearranged (A : (⟨3, ![64, 1024, 257]⟩ : Shape).Idx → EReal)
    (B : (⟨4, ![32, 257, 1024, 2]⟩ : Shape).Idx → EReal)
    (h : ∀ (b : Fin 32) (f : Fin 257) (t : Fin 1024) (cc : Fin 2),
      B (ix4 b f t cc) = A (ix3 ⟨2 * b.val + cc.val, by omega⟩ t f)) :
    (⨆ i, A i) = ⨆ j, B j := by
  apply le_antisymm
  · refine iSup_le fun i => ?_
    obtain ⟨r, t, f, rfl⟩ : ∃ (r : Fin 64) (t : Fin 1024) (f : Fin 257), i = ix3 r t f :=
      ⟨i 0, i 1, i 2, eq_ix3 i⟩
    have e : r = ⟨2 * (r.val / 2) + r.val % 2, by omega⟩ := Fin.ext (by simp only []; omega)
    calc A (ix3 r t f)
        = A (ix3 ⟨2 * (r.val / 2) + r.val % 2, by omega⟩ t f) := congrArg (fun q => A (ix3 q t f)) e
      _ = B (ix4 ⟨r.val / 2, by omega⟩ f t ⟨r.val % 2, by omega⟩) :=
          (h ⟨r.val / 2, by omega⟩ f t ⟨r.val % 2, by omega⟩).symm
      _ ≤ ⨆ j, B j := le_iSup B _
  · refine iSup_le fun j => ?_
    obtain ⟨b, f, t, cc, rfl⟩ : ∃ (b : Fin 32) (f : Fin 257) (t : Fin 1024) (cc : Fin 2), j = ix4 b f t cc :=
      ⟨j 0, j 1, j 2, j 3, eq_ix4 j⟩
    rw [h]
    exact le_iSup A _

/-- The two programs' total maxima agree: the reduction over the `[64, 1024, 257]` array and the one over
    the `[32, 257, 1024, 2]` array of the same numbers give the same rank-zero result, whatever the
    evidence of the shape facts. -/
theorem max_all_eq (A : Cert.KernelIdeal.S64x1024x257.Idx → EReal)
    (B : Cert.ReferenceIdeal.S32x257x1024x2.Idx → EReal)
    (h : ∀ (b : Fin 32) (f : Fin 257) (t : Fin 1024) (cc : Fin 2),
      B (ix4 b f t cc) = A (ix3 ⟨2 * b.val + cc.val, by omega⟩ t f))
    (hA : Cert.KernelIdeal.S64x1024x257.ReducesTo [0, 1, 2] Cert.KernelIdeal.S_)
    (huA : 0 < Cert.KernelIdeal.S_.numel)
    (hB : Cert.ReferenceIdeal.S32x257x1024x2.ReducesTo [0, 1, 2, 3] Cert.ReferenceIdeal.S_)
    (huB : 0 < Cert.ReferenceIdeal.S_.numel) :
    Host.reduce (FloatOps.maximumf (F := Ideal) (φ := .f32)) A
        (constant (F := Ideal) Cert.KernelIdeal.S_ .f32 0xFF800000#32) hA huA
      = Host.reduce (FloatOps.maximumf (F := Ideal) (φ := .f32)) B
        (constant (F := Ideal) Cert.ReferenceIdeal.S_ .f32 0xFF800000#32) hB huB := by
  funext j
  rw [reduce_max_total_const A hA huA j, reduce_max_total_const B hB huB j]
  exact iSup_rearranged A B h

/-- The same at the shape facts the two programs cite. -/
theorem max_all_eq' [Cert.KernelIdeal.Facts₀] [Cert.ReferenceIdeal.Facts₀]
    (A : Cert.KernelIdeal.S64x1024x257.Idx → EReal)
    (B : Cert.ReferenceIdeal.S32x257x1024x2.Idx → EReal)
    (h : ∀ (b : Fin 32) (f : Fin 257) (t : Fin 1024) (cc : Fin 2),
      B (ix4 b f t cc) = A (ix3 ⟨2 * b.val + cc.val, by omega⟩ t f)) :
    Host.reduce (FloatOps.maximumf (F := Ideal) (φ := .f32)) A
        (constant (F := Ideal) Cert.KernelIdeal.S_ .f32 0xFF800000#32)
        Cert.KernelIdeal.Facts₀.reducesTo_S64x1024x257_S_d0_1_2 Cert.KernelIdeal.Facts₀.h_S_
      = Host.reduce (FloatOps.maximumf (F := Ideal) (φ := .f32)) B
        (constant (F := Ideal) Cert.ReferenceIdeal.S_ .f32 0xFF800000#32)
        Cert.ReferenceIdeal.Facts₀.reducesTo_S32x257x1024x2_S_d0_1_2_3 Cert.ReferenceIdeal.Facts₀.h_S_ :=
  max_all_eq A B h _ _ _ _

end Cert.MaxReduce
-- ==== Proof.ScaleBridge.lean ====
import Idealize.ShloMosaic.PureOps.Ideal.Laws

/-!
# A scale factor written two ways

One side multiplies by the real `20971520 / 4828871`; the other multiplies by ten and divides by the
f32 nearest to `ln 10`. The pattern `0x41200000` is the real `10`, the pattern `0x40135D8E` is the real
`4828871 / 2097152`; dividing by a nonzero real is multiplying by its reciprocal on every extended
real, multiplication of extended reals is commutative and associative, and
`10 · (2097152 / 4828871) = 20971520 / 4828871`.
-/

namespace Cert.ScaleBridge

open Idealize.ShloMosaic

/-- The f32 pattern `0x41200000` (exponent field 130, fraction `2^21`) is ten. -/
theorem ofBits_ten : Ideal.ofBits .f32 0x41200000#32 = ((10 : ℝ) : EReal) := by
  simp [Ideal.ofBits, Ideal.ieee, -EReal.coe_mul]; norm_num

/-- The f32 pattern `0x40135D8E` (exponent field 128, fraction `1269134`) is
    `(2^23 + 1269134) / 2^22 = 4828871 / 2097152`, the f32 nearest to `ln 10`. -/
theorem ofBits_ln10 : Ideal.ofBits .f32 0x40135D8E#32 = ((4828871 / 2097152 : ℝ) : EReal) := by
  simp [Ideal.ofBits, Ideal.ieee, -EReal.coe_mul]; norm_num

/-- Multiplying by `20971520 / 4828871` is multiplying by ten and dividing by `4828871 / 2097152`,
    at every extended real. -/
theorem scale_bridge (L : EReal) :
    ((20971520 / 4828871 : ℝ) : EReal) * L
      = Ideal.div (Ideal.ofBits .f32 0x41200000#32 * L) (Ideal.ofBits .f32 0x40135D8E#32) := by
  rw [ofBits_ten, ofBits_ln10, Ideal.div_coe (by norm_num), mul_comm ((10 : ℝ) : EReal) L, mul_assoc,
    ← EReal.coe_mul, mul_comm L]
  congr 2
  norm_num

end Cert.ScaleBridge
-- ==== Proof.Bridge.lean ====
/-
  The two idealized programs compute one function.  Write `X` for the signal padded by 128 zeros on each side,
  `re(b,c,t,f) = ∑_d X(b,c,256·t+d)·k_real(d,f)` and `im` likewise with `k_imag`, and `P = re² + im²`.
    The reference's value at `(b,f,t,c)` is `max (R − max R, −80)` with `R = (10 · log (max (P, floor))) / D`, `D` the f32
  nearest `ln 10`.  The kernel program's is `max (S − max S, −80)` with `S = (10/D) · log (max (P, floor))` laid out at row
  `2b + c`.  `R = S` entry by entry: dividing by the nonzero real `D` is multiplying by its reciprocal on every extended
  real, and multiplication there is commutative and associative.  The global maxima then agree because they are suprema
  of the same set of values, and the last clip is the same function on both sides.
-/
import proofs.«104637_j67207648248372_1_alg».proof.Proof.KValue
import proofs.«104637_j67207648248372_1_alg».proof.Proof.KRun
import proofs.«104637_j67207648248372_1_alg».proof.Proof.RefStages
import proofs.«104637_j67207648248372_1_alg».proof.Proof.MaxReduce
import proofs.«104637_j67207648248372_1_alg».proof.Proof.ScaleBridge
import proofs.«104637_j67207648248372_1_alg».proof.Defs
import proofs.«104637_j67207648248372_1_alg».proof.Proof.Gen.Pre_finite_inputs

set_option maxRecDepth 16384

noncomputable section

open scoped BigOperators

namespace Cert.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The spectrogram at an entry, spelled out. -/
theorem spec_apply (a6 : Vec Ideal S64x1024x512 .bf16) (a7 a8 : Vec Ideal S512x257 .bf16) (n : Fin 64) (t : Fin 1024) (f : Fin 257) :
    Region0.spec a6 a7 a8 (ix3 n t f)
      = Stft.dB (∑ k : Fin 512, a6 (ix3 n t k) * a7 (ix2 k f)) (∑ k : Fin 512, a6 (ix3 n t k) * a8 (ix2 k f)) := rfl

/-- The kernel program's padded signal is the reference's: the same padding of the same argument by the same zero. -/
theorem xp_eq (x : S32x2x262144.Idx → EReal) :
    KLayout.XP x = Cert.ReferenceIdeal.Read.val_main_v0 (F := Ideal) x := by
  have hv : (Cert.ReferenceIdeal.Read.val_main_call0_v0 (F := Ideal) : Cert.ReferenceIdeal.S_.Idx → EReal)
      = fun _ => (0 : EReal) := by
    funext i
    show (((0#32 : BitVec 32).toInt : ℝ) : EReal) = 0
    simp
  unfold KLayout.XP Cert.ReferenceIdeal.Read.val_main_v0
  rw [hv]

/-- Row `2b + c` of the framed signal is channel `(b, c)` of the padded signal. -/
theorem frames_eq (b : Fin 32) (cc : Fin 2) (t : Fin 1024) (k : Fin 512) :
    (V3 m ρ c main_v6 : S64x1024x512.Idx → EReal) (ix3 ⟨2 * b.val + cc.val, by omega⟩ t k)
      = Cert.ReferenceIdeal.Read.val_main_v0 (F := Ideal) (m ((c : Thread nD τ).loc main_arg0))
          (ix3 b cc (Cert.ReferenceIdeal.RefStages.fidx t k)) := by
  rw [KLayout.v6_apply m ρ c ⟨2 * b.val + cc.val, by omega⟩ t k, xp_eq]
  refine congrArg _ (funext fun a => Fin.ext ?_)
  match a with
  | ⟨0, _⟩ => show (2 * b.val + cc.val) / 2 = b.val; omega
  | ⟨1, _⟩ => show (2 * b.val + cc.val) % 2 = cc.val; omega
  | ⟨2, _⟩ => rfl

/-- A spectral sum over a row of the framed signal is the sum over the padded signal's samples. -/
theorem sum_eq (a6 : Vec Ideal S64x1024x512 .bf16) (a7 : Vec Ideal S512x257 .bf16)
    (xp : Cert.ReferenceIdeal.S32x2x262400.Idx → EReal) (kk : Cert.ReferenceIdeal.S512x257.Idx → EReal)
    (n : Fin 64) (b : Fin 32) (cc : Fin 2) (t : Fin 1024) (f : Fin 257)
    (h6 : ∀ k : Fin 512, a6 (ix3 n t k) = xp (ix3 b cc (Cert.ReferenceIdeal.RefStages.fidx t k)))
    (h7 : ∀ j, a7 j = kk j) :
    (∑ k : Fin 512, a6 (ix3 n t k) * a7 (ix2 k f))
      = ∑ k : Fin 512, xp (ix3 b cc (Cert.ReferenceIdeal.RefStages.fidx t k)) * kk (ix2 k f) :=
  Finset.sum_congr rfl fun k _ => congrArg₂ (fun a b : EReal => a * b) (h6 k) (h7 _)

/-- The decibel values agree entry by entry. -/
theorem raw_eq (b : Fin 32) (f : Fin 257) (t : Fin 1024) (cc : Fin 2) :
    Cert.ReferenceIdeal.Read.val_main_v29 (F := Ideal) (m ((c : Thread nD τ).loc main_arg0))
        (m ((c : Thread nD τ).loc main_arg1)) (m ((c : Thread nD τ).loc main_arg2)) (ix4 b f t cc)
      = KValue.raw m ρ c (ix3 ⟨2 * b.val + cc.val, by omega⟩ t f) := by
  rw [Cert.ReferenceIdeal.RefStages.v29_apply, ← Cert.ScaleBridge.scale_bridge]
  show _ = Region0.spec (V3 m ρ c main_v6) (V3 m ρ c main_v7) (V3 m ρ c main_v8) (ix3 ⟨2 * b.val + cc.val, by omega⟩ t f)
  rw [spec_apply]
  refine Eq.trans ?_ (congrArg₂ Stft.dB
    (sum_eq (V3 m ρ c main_v6) (V3 m ρ c main_v7) _ _ ⟨2 * b.val + cc.val, by omega⟩ b cc t f
      (frames_eq m ρ c b cc t) (congrFun (KLayout.v7_eq m ρ c)))
    (sum_eq (V3 m ρ c main_v6) (V3 m ρ c main_v8) _ _ ⟨2 * b.val + cc.val, by omega⟩ b cc t f
      (frames_eq m ρ c b cc t) (congrFun (KLayout.v8_eq m ρ c)))).symm
  rfl

/-- The kernel program's result is the reference's stage of the same arguments. -/
theorem result_eq :
    (W7 m ρ c (Proc.devRef .tc main_v14) : S32x257x1024x2.Idx → EReal)
      = Cert.ReferenceIdeal.Read.val_main_v34 (F := Ideal) (m ((c : Thread nD τ).loc main_arg0))
          (m ((c : Thread nD τ).loc main_arg1)) (m ((c : Thread nD τ).loc main_arg2)) := by
  funext i
  obtain ⟨b, f, t, cc, rfl⟩ : ∃ (b : Fin 32) (f : Fin 257) (t : Fin 1024) (cc : Fin 2), i = ix4 b f t cc :=
    ⟨i 0, i 1, i 2, i 3, eq_ix4 i⟩
  rw [KValue.result_apply, Cert.ReferenceIdeal.RefStages.v34_apply, raw_eq m ρ c b f t cc]
  have hg := Cert.MaxReduce.max_all_eq' (KValue.raw m ρ c)
    (Cert.ReferenceIdeal.Read.val_main_v29 (F := Ideal) (m ((c : Thread nD τ).loc main_arg0))
      (m ((c : Thread nD τ).loc main_arg1)) (m ((c : Thread nD τ).loc main_arg2)))
    (fun b f t cc => raw_eq m ρ c b f t cc)
  rw [← hg]
  rfl

end Cert.Bridge

namespace Cert.Proof.Claims

open Idealize.ShloMosaic Idealize.ShloMosaic.TcCoe Idealize.SL.Sem

/-- Both idealized programs run, and from memories agreeing on the arguments end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W7 m ρ c (Proc.devRef .tc Cert.KernelIdeal.main_v14),
    Cert.KernelIdeal.KRun.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2]
  exact (Cert.Bridge.result_eq m ρ c).symm

end Cert.Proof.Claims

end
-- ==== Proof.lean ====
/-
  A two-region spectrogram — windowed short-time Fourier transform by two matrix products, power, decibels, then
  the global maximum subtracted and a clip at −80 — against the same computation written on the host.

  The three frame claims: both forms of the kernel program run without fault and leave their arguments alone
  (the generated frame certificates), and the reference does too (its generated run, the result dropped).
  The idealization names one constant, the kernel's folded scale 10 / ln 10 (the word 0x408AF967), as the exact
  quotient of 10 by the reference's printed divisor 4828871/2097152 (the f32 nearest ln 10): the one ledger entry.
  The value claim: index by index both programs compute max (S − max S, −80) with
  S = (10/D) · log (max (re² + im², floor)); the kernel program multiplies by 10/D where the reference multiplies by 10
  and divides by D, which on the extended reals is the same number for every value of the logarithm.
-/
import proofs.«104637_j67207648248372_1_alg».proof.Defs
import proofs.«104637_j67207648248372_1_alg».proof.Proof.Gen.Kernel
import proofs.«104637_j67207648248372_1_alg».proof.Proof.Gen.Kernel.Skeleton
import proofs.«104637_j67207648248372_1_alg».proof.Proof.Gen.Kernel.Launch
import proofs.«104637_j67207648248372_1_alg».proof.Proof.Gen.Kernel.Points
import proofs.«104637_j67207648248372_1_alg».proof.Proof.Gen.Kernel.Frame
import proofs.«104637_j67207648248372_1_alg».proof.Proof.Gen.KernelIdeal
import proofs.«104637_j67207648248372_1_alg».proof.Proof.Gen.KernelIdeal.Skeleton
import proofs.«104637_j67207648248372_1_alg».proof.Proof.Gen.KernelIdeal.Launch
import proofs.«104637_j67207648248372_1_alg».proof.Proof.Gen.KernelIdeal.Points
import proofs.«104637_j67207648248372_1_alg».proof.Proof.Gen.KernelIdeal.Frame
import proofs.«104637_j67207648248372_1_alg».proof.Proof.Gen.ReferenceIdeal
import proofs.«104637_j67207648248372_1_alg».proof.Proof.Gen.ReferenceIdeal.Run
import proofs.«104637_j67207648248372_1_alg».proof.Proof.Gen.ReferenceIdeal.Read
import proofs.«104637_j67207648248372_1_alg».proof.Proof.Gen.Pre_finite_inputs
import proofs.«104637_j67207648248372_1_alg».proof.Proof.Bridge
import Idealize.ShloMosaic.Adequacy
import Idealize.ShloMosaic.Init

noncomputable section

namespace Cert.Proof

open Idealize.ShloMosaic Idealize.SL.Sem Cert.Kernel

/-- The ledger's one entry: the table gives the scale's name the exact quotient. -/
theorem preserves : Cert.preserves_Kernel_KernelIdeal :=
  IdealRules.named_const.statement Cert.KernelIdeal.κ "ten_over_ln10" .f32 0x408AF967#32
    ((20971520 / 4828871 : ℝ) : EReal) rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  preserves,
  Cert.Proof.Claims.algebraic⟩

end Cert.Proof

end
